-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x128x128x256 : Shape := ⟨4, ![2, 128, 128, 256]⟩
abbrev S20x128 : Shape := ⟨2, ![20, 128]⟩
abbrev S1 : Shape := ⟨1, ![1]⟩
abbrev S_ : Shape := ⟨0, ![]⟩

class Facts : Prop where
  bcast_S_S2x128x128x256 : S_.BroadcastsInDim S2x128x128x256 (![] : Fin 0 → Fin S2x128x128x256.rank)
  reducesTo_S2x128x128x256_S_d0_1_2_3 : S2x128x128x256.ReducesTo [0, 1, 2, 3] S_
  h_S_ : 0 < S_.numel
  bcast_S_S20x128 : S_.BroadcastsInDim S20x128 (![] : Fin 0 → Fin S20x128.rank)
  reducesTo_S20x128_S_d0_1 : S20x128.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S2x128x128x256 .f32) (main_arg1 : FVec F S20x128 .f32) (main_arg2 : FVec F S1 .f32) : IVec S_ 1 :=
  let main_v0 : FVec F S2x128x128x256 .f32 := Host.absf main_arg0
  let main_cst : FVec F S_ .f32 := constant S_ .f32 0x7F800000#32
  let main_v1 : FVec F S2x128x128x256 .f32 := broadcastInDim S2x128x128x256 ![] bcast_S_S2x128x128x256 main_cst
  let main_v2 : IVec S2x128x128x256 1 := cmpf .olt main_v0 main_v1
  let main_c : IVec S_ 1 := constantI S_ 1 1#1
  let main_v3 : IVec S_ 1 := (fun x v => Host.reduce IntOp.andi x v reducesTo_S2x128x128x256_S_d0_1_2_3 h_S_) main_v2 main_c
  let main_v4 : FVec F S20x128 .f32 := Host.absf main_arg1
  let main_cst_0 : FVec F S_ .f32 := constant S_ .f32 0x7F800000#32
  let main_v5 : FVec F S20x128 .f32 := broadcastInDim S20x128 ![] bcast_S_S20x128 main_cst_0
  let main_v6 : IVec S20x128 1 := cmpf .olt main_v4 main_v5
  let main_c_1 : IVec S_ 1 := constantI S_ 1 1#1
  let main_v7 : IVec S_ 1 := (fun x v => Host.reduce IntOp.andi x v reducesTo_S20x128_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S2x128x128x256 : Shape := ⟨4, ![2, 128, 128, 256]⟩
abbrev S20x128 : Shape := ⟨2, ![20, 128]⟩
abbrev S1 : Shape := ⟨1, ![1]⟩
abbrev S_ : Shape := ⟨0, ![]⟩
abbrev S20 : Shape := ⟨1, ![20]⟩
abbrev S20x1 : Shape := ⟨2, ![20, 1]⟩
abbrev S2x20x128x256 : Shape := ⟨4, ![2, 20, 128, 256]⟩
abbrev S1x128x32x256 : Shape := ⟨4, ![1, 128, 32, 256]⟩
abbrev S1x20x32x256 : Shape := ⟨4, ![1, 20, 32, 256]⟩
abbrev S1x128x32 : Shape := ⟨3, ![1, 128, 32]⟩
abbrev S1x128x32x1 : Shape := ⟨4, ![1, 128, 32, 1]⟩
abbrev S1x128 : Shape := ⟨2, ![1, 128]⟩
abbrev S128 : Shape := ⟨1, ![128]⟩
abbrev S1x128x1x1 : Shape := ⟨4, ![1, 128, 1, 1]⟩
abbrev S1x32x256 : Shape := ⟨3, ![1, 32, 256]⟩
abbrev S32x256 : Shape := ⟨2, ![32, 256]⟩
abbrev S1x1x32x256 : Shape := ⟨4, ![1, 1, 32, 256]⟩
abbrev S1x1x1x1 : Shape := ⟨4, ![1, 1, 1, 1]⟩

abbrev nBuf : Space → Nat
  | .hbm => 22
  | .vmem => 5
  | .smem => 0
  | _ => 0

abbrev bufTy : (tb : Table) → Fin (tcTables nBuf tb) → BufTy
  | .hbm, ⟨0, _⟩ => ⟨S2x128x128x256, .f32⟩
  | .hbm, ⟨1, _⟩ => ⟨S20x128, .f32⟩
  | .hbm, ⟨2, _⟩ => ⟨S1, .f32⟩
  | .hbm, ⟨3, _⟩ => ⟨S20x128, .f32⟩
  | .hbm, ⟨4, _⟩ => ⟨S_, .f32⟩
  | .hbm, ⟨5, _⟩ => ⟨S20, .f32⟩
  | .hbm, ⟨6, _⟩ => ⟨S20x1, .f32⟩
  | .hbm, ⟨7, _⟩ => ⟨S20x1, .f32⟩
  | .hbm, ⟨8, _⟩ => ⟨S_, .f32⟩
  | .hbm, ⟨9, _⟩ => ⟨S20x1, .f32⟩
  | .hbm, ⟨10, _⟩ => ⟨S20x1, .f32⟩
  | .hbm, ⟨11, _⟩ => ⟨S20x128, .f32⟩
  | .hbm, ⟨12, _⟩ => ⟨S20x128, .f32⟩
  | .hbm, ⟨13, _⟩ => ⟨S2x20x128x256, .f32⟩
  | .hbm, ⟨14, _⟩ => ⟨S1, .f32⟩
  | .hbm, ⟨15, _⟩ => ⟨S2x20x128x256, .f32⟩
  | .hbm, ⟨16, _⟩ => ⟨S1x1x1x1, .f32⟩
  | .hbm, ⟨17, _⟩ => ⟨S2x20x128x256, .f32⟩
  | .hbm, ⟨18, _⟩ => ⟨S2x20x128x256, .f32⟩
  | .hbm, ⟨19, _⟩ => ⟨S_, .f32⟩
  | .hbm, ⟨20, _⟩ => ⟨S2x20x128x256, .f32⟩
  | .hbm, ⟨21, _⟩ => ⟨S2x20x128x256, .f32⟩
  | .local _ .vmem, ⟨0, _⟩ => ⟨S1x128x32x256, .f32⟩
  | .local _ .vmem, ⟨1, _⟩ => ⟨S1x128x32x256, .f32⟩
  | .local _ .vmem, ⟨2, _⟩ => ⟨S20x128, .f32⟩
  | .local _ .vmem, ⟨3, _⟩ => ⟨S1x20x32x256, .f32⟩
  | .local _ .vmem, ⟨4, _⟩ => ⟨S1x20x32x256, .f32⟩
  | _, _ => ⟨S2x128x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x128x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S20x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x20x32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  reducesTo_S20x128_S20_d1 : S20x128.ReducesTo [1] S20
  h_S_ : 0 < S_.numel
  bcast_S20_S20x1_0 : S20.BroadcastsInDim S20x1 (![0] : Fin 1 → Fin S20x1.rank)
  bcast_S_S20x1 : S_.BroadcastsInDim S20x1 (![] : Fin 0 → Fin S20x1.rank)
  bcast_S20x1_S20x128_0_1 : S20x1.BroadcastsInDim S20x128 (![0, 1] : Fin 2 → Fin S20x128.rank)
  inb_S1x128x32x256_S1x128x32x256_0_0_0_0 : ∀ a, (![0, 0, 0, 0] : Fin 4 → Nat) a + S1x128x32x256.size a ≤ S1x128x32x256.size a
  h_S1x128x32x256 : 0 < S1x128x32x256.numel
  reduces_S1x128x32x256_S1x128x32 : S1x128x32x256.Reduces [3] S1x128x32
  shapeCasts_S1x128x32_S1x128x32x1 : S1x128x32.ShapeCasts S1x128x32x1
  broadcasts_S1x128x32x1_S1x128x32x256 : S1x128x32x1.Broadcasts S1x128x32x256
  inb_S20x128_S20x128_0_0 : ∀ a, (![0, 0] : Fin 2 → Nat) a + S20x128.size a ≤ S20x128.size a
  h_S20x128 : 0 < S20x128.numel
  shapeCasts_S20x128_S20x128 : S20x128.ShapeCasts S20x128
  slices_S20x128_o0_0_S1x128 : S20x128.Slices ![0, 0] S1x128
  shapeCasts_S1x128_S128 : S1x128.ShapeCasts S128
  shapeCasts_S128_S1x128x1x1 : S128.ShapeCasts S1x128x1x1
  broadcasts_S1x128x1x1_S1x128x32x256 : S1x128x1x1.Broadcasts S1x128x32x256
  reduces_S1x128x32x256_S1x32x256 : S1x128x32x256.Reduces [1] S1x32x256
  shapeCasts_S1x32x256_S32x256 : S1x32x256.ShapeCasts S32x256
  inb_S1x20x32x256_S1x1x32x256_0_0_0_0 : ∀ a, (![0, 0, 0, 0] : Fin 4 → Nat) a + S1x1x32x256.size a ≤ S1x20x32x256.size a
  h_S1x1x32x256 : 0 < S1x1x32x256.numel
  shapeCasts_S1x1x32x256_S32x256 : S1x1x32x256.ShapeCasts S32x256
  shapeCasts_S32x256_S1x1x32x256 : S32x256.ShapeCasts S1x1x32x256
  slices_S20x128_o1_0_S1x128 : S20x128.Slices ![1, 0] S1x128
  inb_S1x20x32x256_S1x1x32x256_0_1_0_0 : ∀ a, (![0, 1, 0, 0] : Fin 4 → Nat) a + S1x1x32x256.size a ≤ S1x20x32x256.size a
  slices_S20x128_o2_0_S1x128 : S20x128.Slices ![2, 0] S1x128
  inb_S1x20x32x256_S1x1x32x256_0_2_0_0 : ∀ a, (![0, 2, 0, 0] : Fin 4 → Nat) a + S1x1x32x256.size a ≤ S1x20x32x256.size a
  slices_S20x128_o3_0_S1x128 : S20x128.Slices ![3, 0] S1x128
  inb_S1x20x32x256_S1x1x32x256_0_3_0_0 : ∀ a, (![0, 3, 0, 0] : Fin 4 → Nat) a + S1x1x32x256.size a ≤ S1x20x32x256.size a
  slices_S20x128_o4_0_S1x128 : S20x128.Slices ![4, 0] S1x128
  inb_S1x20x32x256_S1x1x32x256_0_4_0_0 : ∀ a, (![0, 4, 0, 0] : Fin 4 → Nat) a + S1x1x32x256.size a ≤ S1x20x32x256.size a
  slices_S20x128_o5_0_S1x128 : S20x128.Slices ![5, 0] S1x128
  inb_S1x20x32x256_S1x1x32x256_0_5_0_0 : ∀ a, (![0, 5, 0, 0] : Fin 4 → Nat) a + S1x1x32x256.size a ≤ S1x20x32x256.size a
  slices_S20x128_o6_0_S1x128 : S20x128.Slices ![6, 0] S1x128
  inb_S1x20x32x256_S1x1x32x256_0_6_0_0 : ∀ a, (![0, 6, 0, 0] : Fin 4 → Nat) a + S1x1x32x256.size a ≤ S1x20x32x256.size a
  slices_S20x128_o7_0_S1x128 : S20x128.Slices ![7, 0] S1x128
  inb_S1x20x32x256_S1x1x32x256_0_7_0_0 : ∀ a, (![0, 7, 0, 0] : Fin 4 → Nat) a + S1x1x32x256.size a ≤ S1x20x32x256.size a
  slices_S20x128_o8_0_S1x128 : S20x128.Slices ![8, 0] S1x128
  inb_S1x20x32x256_S1x1x32x256_0_8_0_0 : ∀ a, (![0, 8, 0, 0] : Fin 4 → Nat) a + S1x1x32x256.size a ≤ S1x20x32x256.size a
  slices_S20x128_o9_0_S1x128 : S20x128.Slices ![9, 0] S1x128
  inb_S1x20x32x256_S1x1x32x256_0_9_0_0 : ∀ a, (![0, 9, 0, 0] : Fin 4 → Nat) a + S1x1x32x256.size a ≤ S1x20x32x256.size a
  slices_S20x128_o10_0_S1x128 : S20x128.Slices ![10, 0] S1x128
  inb_S1x20x32x256_S1x1x32x256_0_10_0_0 : ∀ a, (![0, 10, 0, 0] : Fin 4 → Nat) a + S1x1x32x256.size a ≤ S1x20x32x256.size a
  slices_S20x128_o11_0_S1x128 : S20x128.Slices ![11, 0] S1x128
  inb_S1x20x32x256_S1x1x32x256_0_11_0_0 : ∀ a, (![0, 11, 0, 0] : Fin 4 → Nat) a + S1x1x32x256.size a ≤ S1x20x32x256.size a
  slices_S20x128_o12_0_S1x128 : S20x128.Slices ![12, 0] S1x128
  inb_S1x20x32x256_S1x1x32x256_0_12_0_0 : ∀ a, (![0, 12, 0, 0] : Fin 4 → Nat) a + S1x1x32x256.size a ≤ S1x20x32x256.size a
  slices_S20x128_o13_0_S1x128 : S20x128.Slices ![13, 0] S1x128
  inb_S1x20x32x256_S1x1x32x256_0_13_0_0 : ∀ a, (![0, 13, 0, 0] : Fin 4 → Nat) a + S1x1x32x256.size a ≤ S1x20x32x256.size a
  slices_S20x128_o14_0_S1x128 : S20x128.Slices ![14, 0] S1x128
  inb_S1x20x32x256_S1x1x32x256_0_14_0_0 : ∀ a, (![0, 14, 0, 0] : Fin 4 → Nat) a + S1x1x32x256.size a ≤ S1x20x32x256.size a
  slices_S20x128_o15_0_S1x128 : S20x128.Slices ![15, 0] S1x128
  inb_S1x20x32x256_S1x1x32x256_0_15_0_0 : ∀ a, (![0, 15, 0, 0] : Fin 4 → Nat) a + S1x1x32x256.size a ≤ S1x20x32x256.size a
  slices_S20x128_o16_0_S1x128 : S20x128.Slices ![16, 0] S1x128
  inb_S1x20x32x256_S1x1x32x256_0_16_0_0 : ∀ a, (![0, 16, 0, 0] : Fin 4 → Nat) a + S1x1x32x256.size a ≤ S1x20x32x256.size a
  slices_S20x128_o17_0_S1x128 : S20x128.Slices ![17, 0] S1x128
  inb_S1x20x32x256_S1x1x32x256_0_17_0_0 : ∀ a, (![0, 17, 0, 0] : Fin 4 → Nat) a + S1x1x32x256.size a ≤ S1x20x32x256.size a
  slices_S20x128_o18_0_S1x128 : S20x128.Slices ![18, 0] S1x128
  inb_S1x20x32x256_S1x1x32x256_0_18_0_0 : ∀ a, (![0, 18, 0, 0] : Fin 4 → Nat) a + S1x1x32x256.size a ≤ S1x20x32x256.size a
  slices_S20x128_o19_0_S1x128 : S20x128.Slices ![19, 0] S1x128
  inb_S1x20x32x256_S1x1x32x256_0_19_0_0 : ∀ a, (![0, 19, 0, 0] : Fin 4 → Nat) a + S1x1x32x256.size a ≤ S1x20x32x256.size a
  bcast_S1_S1x1x1x1_3 : S1.BroadcastsInDim S1x1x1x1 (![3] : Fin 1 → Fin S1x1x1x1.rank)
  bcast_S1x1x1x1_S2x20x128x256_0_1_2_3 : S1x1x1x1.BroadcastsInDim S2x20x128x256 (![0, 1, 2, 3] : Fin 4 → Fin S2x20x128x256.rank)
  bcast_S_S2x20x128x256 : S_.BroadcastsInDim S2x20x128x256 (![] : Fin 0 → Fin S2x20x128x256.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x32x256.size a ≤ S2x128x128x256.size a
  hwx0_0 : ∀ i : grid0.Coords, EltTy.bits .f32 = 32 ∨ (Rect.block (s := S2x128x128x256) S1x128x32x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S20x128.size a ≤ S20x128.size a
  hwx0_1 : ∀ i : grid0.Coords, EltTy.bits .f32 = 32 ∨ (Rect.block (s := S20x128) S20x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x20x32x256.size a ≤ S2x20x128x256.size a
  hwx0_2 : ∀ i : grid0.Coords, EltTy.bits .f32 = 32 ∨ (Rect.block (s := S2x20x128x256) S1x20x32x256.size (cc0_transform_2 i) (hinb0_2 i)).WholeWords (EltTy.packing .f32)

variable [Facts₀]

abbrev win0_0 : Pipeline.Window sig grid0 :=
  Pipeline.Window.ofSpec (Memref.whole main_arg0) S1x128x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S20x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x20x32x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x128x128x256 : Shape := ⟨4, ![2, 128, 128, 256]⟩
abbrev S20x128 : Shape := ⟨2, ![20, 128]⟩
abbrev S1 : Shape := ⟨1, ![1]⟩
abbrev S2x256x128x128 : Shape := ⟨4, ![2, 256, 128, 128]⟩
abbrev S_ : Shape := ⟨0, ![]⟩
abbrev S2x128x128 : Shape := ⟨3, ![2, 128, 128]⟩
abbrev S2x1x128x128 : Shape := ⟨4, ![2, 1, 128, 128]⟩
abbrev S20 : Shape := ⟨1, ![20]⟩
abbrev S20x1 : Shape := ⟨2, ![20, 1]⟩
abbrev S2x256x128x1x128 : Shape := ⟨5, ![2, 256, 128, 1, 128]⟩
abbrev S1x1x1x20x128 : Shape := ⟨5, ![1, 1, 1, 20, 128]⟩
abbrev S2x256x128x20x128 : Shape := ⟨5, ![2, 256, 128, 20, 128]⟩
abbrev S2x256x128x20 : Shape := ⟨4, ![2, 256, 128, 20]⟩
abbrev S1x1x1x1 : Shape := ⟨4, ![1, 1, 1, 1]⟩
abbrev S2x20x128x256 : Shape := ⟨4, ![2, 20, 128, 256]⟩

abbrev nBuf : Space → Nat
  | .hbm => 42
  | .vmem => 0
  | .smem => 0
  | _ => 0

abbrev bufTy : (tb : Table) → Fin (tcTables nBuf tb) → BufTy
  | .hbm, ⟨0, _⟩ => ⟨S2x128x128x256, .f32⟩
  | .hbm, ⟨1, _⟩ => ⟨S20x128, .f32⟩
  | .hbm, ⟨2, _⟩ => ⟨S1, .f32⟩
  | .hbm, ⟨3, _⟩ => ⟨S2x256x128x128, .f32⟩
  | .hbm, ⟨4, _⟩ => ⟨S2x256x128x128, .f32⟩
  | .hbm, ⟨5, _⟩ => ⟨S_, .f32⟩
  | .hbm, ⟨6, _⟩ => ⟨S2x128x128, .f32⟩
  | .hbm, ⟨7, _⟩ => ⟨S2x1x128x128, .f32⟩
  | .hbm, ⟨8, _⟩ => ⟨S2x1x128x128, .f32⟩
  | .hbm, ⟨9, _⟩ => ⟨S_, .f32⟩
  | .hbm, ⟨10, _⟩ => ⟨S2x1x128x128, .f32⟩
  | .hbm, ⟨11, _⟩ => ⟨S2x1x128x128, .f32⟩
  | .hbm, ⟨12, _⟩ => ⟨S2x256x128x128, .f32⟩
  | .hbm, ⟨13, _⟩ => ⟨S2x256x128x128, .f32⟩
  | .hbm, ⟨14, _⟩ => ⟨S20x128, .f32⟩
  | .hbm, ⟨15, _⟩ => ⟨S_, .f32⟩
  | .hbm, ⟨16, _⟩ => ⟨S20, .f32⟩
  | .hbm, ⟨17, _⟩ => ⟨S20x1, .f32⟩
  | .hbm, ⟨18, _⟩ => ⟨S20x1, .f32⟩
  | .hbm, ⟨19, _⟩ => ⟨S_, .f32⟩
  | .hbm, ⟨20, _⟩ => ⟨S20x1, .f32⟩
  | .hbm, ⟨21, _⟩ => ⟨S20x1, .f32⟩
  | .hbm, ⟨22, _⟩ => ⟨S20x128, .f32⟩
  | .hbm, ⟨23, _⟩ => ⟨S20x128, .f32⟩
  | .hbm, ⟨24, _⟩ => ⟨S2x256x128x1x128, .f32⟩
  | .hbm, ⟨25, _⟩ => ⟨S1x1x1x20x128, .f32⟩
  | .hbm, ⟨26, _⟩ => ⟨S2x256x128x20x128, .f32⟩
  | .hbm, ⟨27, _⟩ => ⟨S2x256x128x20x128, .f32⟩
  | .hbm, ⟨28, _⟩ => ⟨S2x256x128x20x128, .f32⟩
  | .hbm, ⟨29, _⟩ => ⟨S2x256x128x20x128, .f32⟩
  | .hbm, ⟨30, _⟩ => ⟨S_, .f32⟩
  | .hbm, ⟨31, _⟩ => ⟨S2x256x128x20, .f32⟩
  | .hbm, ⟨32, _⟩ => ⟨S2x256x128x20, .f32⟩
  | .hbm, ⟨33, _⟩ => ⟨S1, .f32⟩
  | .hbm, ⟨34, _⟩ => ⟨S1x1x1x1, .f32⟩
  | .hbm, ⟨35, _⟩ => ⟨S2x256x128x20, .f32⟩
  | .hbm, ⟨36, _⟩ => ⟨S2x256x128x20, .f32⟩
  | .hbm, ⟨37, _⟩ => ⟨S2x20x128x256, .f32⟩
  | .hbm, ⟨38, _⟩ => ⟨S2x20x128x256, .f32⟩
  | .hbm, ⟨39, _⟩ => ⟨S_, .f32⟩
  | .hbm, ⟨40, _⟩ => ⟨S2x20x128x256, .f32⟩
  | .hbm, ⟨41, _⟩ => ⟨S2x20x128x256, .f32⟩
  | _, _ => ⟨S2x128x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]

class Facts₀ : Prop where
  transposes_S2x128x128x256_S2x256x128x128_0_3_2_1 : S2x128x128x256.Transposes [0, 3, 2, 1] S2x256x128x128
  reducesTo_S2x256x128x128_S2x128x128_d1 : S2x256x128x128.ReducesTo [1] S2x128x128
  h_S_ : 0 < S_.numel
  bcast_S2x128x128_S2x1x128x128_0_2_3 : S2x128x128.BroadcastsInDim S2x1x128x128 (![0, 2, 3] : Fin 3 → Fin S2x1x128x128.rank)
  bcast_S_S2x1x128x128 : S_.BroadcastsInDim S2x1x128x128 (![] : Fin 0 → Fin S2x1x128x128.rank)
  bcast_S2x1x128x128_S2x256x128x128_0_1_2_3 : S2x1x128x128.BroadcastsInDim S2x256x128x128 (![0, 1, 2, 3] : Fin 4 → Fin S2x256x128x128.rank)
  reducesTo_S20x128_S20_d1 : S20x128.ReducesTo [1] S20
  bcast_S20_S20x1_0 : S20.BroadcastsInDim S20x1 (![0] : Fin 1 → Fin S20x1.rank)
  bcast_S_S20x1 : S_.BroadcastsInDim S20x1 (![] : Fin 0 → Fin S20x1.rank)
  bcast_S20x1_S20x128_0_1 : S20x1.BroadcastsInDim S20x128 (![0, 1] : Fin 2 → Fin S20x128.rank)
  bcast_S2x256x128x128_S2x256x128x1x128_0_1_2_4 : S2x256x128x128.BroadcastsInDim S2x256x128x1x128 (![0, 1, 2, 4] : Fin 4 → Fin S2x256x128x1x128.rank)
  bcast_S20x128_S1x1x1x20x128_3_4 : S20x128.BroadcastsInDim S1x1x1x20x128 (![3, 4] : Fin 2 → Fin S1x1x1x20x128.rank)
  bcast_S2x256x128x1x128_S2x256x128x20x128_0_1_2_3_4 : S2x256x128x1x128.BroadcastsInDim S2x256x128x20x128 (![0, 1, 2, 3, 4] : Fin 5 → Fin S2x256x128x20x128.rank)
  bcast_S1x1x1x20x128_S2x256x128x20x128_0_1_2_3_4 : S1x1x1x20x128.BroadcastsInDim S2x256x128x20x128 (![0, 1, 2, 3, 4] : Fin 5 → Fin S2x256x128x20x128.rank)
  reducesTo_S2x256x128x20x128_S2x256x128x20_d4 : S2x256x128x20x128.ReducesTo [4] S2x256x128x20
  bcast_S1_S1x1x1x1_3 : S1.BroadcastsInDim S1x1x1x1 (![3] : Fin 1 → Fin S1x1x1x1.rank)
  bcast_S1x1x1x1_S2x256x128x20_0_1_2_3 : S1x1x1x1.BroadcastsInDim S2x256x128x20 (![0, 1, 2, 3] : Fin 4 → Fin S2x256x128x20.rank)
  transposes_S2x256x128x20_S2x20x128x256_0_3_2_1 : S2x256x128x20.Transposes [0, 3, 2, 1] S2x20x128x256
  bcast_S_S2x20x128x256 : S_.BroadcastsInDim S2x20x128x256 (![] : Fin 0 → Fin S2x20x128x256.rank)

variable [Facts₀]

class Facts : Prop extends Facts₀ where

variable [Facts]
-- ==== Proof.Spec.lean ====
/-
  Distances from unit-length feature rows to unit-length prototypes, as plain formulas on the extended reals.

  A feature array `f` of shape [2, 128, 128, 256] is indexed (b, c, h, w).  Each row along the last axis is divided by
  its Euclidean length, the length clamped below by a small positive constant `eps`:
      u(b, c, h, w) = f(b, c, h, w) / max (sqrt (sum over w' of f(b, c, h, w')^2)) eps.
  Against an array `q` of shape [20, 128] (the prototypes, already brought to unit length by the caller), the distance is
      d(b, k, h, w) = sqrt (sum over c of (u(b, c, h, w) - q(k, c))^2),
  and the result is  (-d(b, k, h, w) * s) / one  for a scale `s` (the absolute value of the scale argument).

  The same formulas are stated for one block of 32 consecutive values of h (shape [1, 128, 32, 256]); a block that is a
  restriction of the array has the array's distances (`blockDist_eq`), because a row along w lies wholly inside a block.
  Last, the one law joining the two programs' tails: negating before or after multiplying by the scale, in either
  order of the factors, is the same extended real (`neg_scale`); it holds at the infinities too, so no finiteness is used.
-/
import Idealize.ShloMosaic.PureOps.Ideal
import Idealize.ShloMosaic.Lib.ValueIdx

noncomputable section

open scoped BigOperators

namespace Cert.ProtoDist

open Idealize.ShloMosaic Idealize.ShloMosaic.ValueIdx

/-- The feature array's index set, (b, c, h, w). -/
abbrev FeatIdx := (⟨4, ![2, 128, 128, 256]⟩ : Shape).Idx
/-- One block of it: 32 consecutive h of one b. -/
abbrev BlockIdx := (⟨4, ![1, 128, 32, 256]⟩ : Shape).Idx
/-- The prototypes' index set, (k, c). -/
abbrev ProtoIdx := (⟨2, ![20, 128]⟩ : Shape).Idx
/-- The result's index set, (b, k, h, w). -/
abbrev OutIdx := (⟨4, ![2, 20, 128, 256]⟩ : Shape).Idx

/-- The lower clamp of a row's length (the single-precision value nearest 1e-12; the same word in both programs). -/
abbrev eps : EReal := Ideal.ofBits .f32 0x2B8CBCCC#32
/-- The final divisor, the word of 1.0 (the same word in both programs). -/
abbrev one : EReal := Ideal.ofBits .f32 0x3F800000#32

/-- The clamped Euclidean length of the row (b, c, h, ·). -/
def rowLen (f : FeatIdx → EReal) (b : Fin 2) (c : Fin 128) (h : Fin 128) : EReal :=
  max (Ideal.sqrt (∑ w : Fin 256, f (ix4 b c h w) * f (ix4 b c h w))) eps

/-- The feature at (b, c, h, w) divided by its row's clamped length. -/
def unit (f : FeatIdx → EReal) (b : Fin 2) (c : Fin 128) (h : Fin 128) (w : Fin 256) : EReal :=
  Ideal.div (f (ix4 b c h w)) (rowLen f b c h)

/-- The distance, along c, from the unit features at (b, ·, h, w) to prototype k. -/
def dist (f : FeatIdx → EReal) (q : ProtoIdx → EReal) (b : Fin 2) (k : Fin 20) (h : Fin 128) (w : Fin 256) : EReal :=
  Ideal.sqrt (∑ c : Fin 128, (unit f b c h w - q (ix2 k c)) * (unit f b c h w - q (ix2 k c)))

/-- The distances as one array. -/
def distArr (f : FeatIdx → EReal) (q : ProtoIdx → EReal) : OutIdx → EReal :=
  fun i => dist f q (i 0) (i 1) (i 2) (i 3)

/-- The result: the negated distance times the scale, over one. -/
def logits (f : FeatIdx → EReal) (q : ProtoIdx → EReal) (s : EReal) : OutIdx → EReal :=
  fun i => Ideal.div (-(distArr f q i) * s) one

/-! ## The same on one block -/

/-- The clamped length of row (c, h, ·) of a block. -/
def blockRowLen (x : BlockIdx → EReal) (c : Fin 128) (h : Fin 32) : EReal :=
  max (Ideal.sqrt (∑ w : Fin 256, x (ix4 0 c h w) * x (ix4 0 c h w))) eps

/-- A block's entry divided by its row's clamped length. -/
def blockUnit (x : BlockIdx → EReal) (c : Fin 128) (h : Fin 32) (w : Fin 256) : EReal :=
  Ideal.div (x (ix4 0 c h w)) (blockRowLen x c h)

/-- The distance, along c, from a block's unit entries at (·, h, w) to prototype k. -/
def blockDist (x : BlockIdx → EReal) (q : ProtoIdx → EReal) (k : Fin 20) (h : Fin 32) (w : Fin 256) : EReal :=
  Ideal.sqrt (∑ c : Fin 128, (blockUnit x c h w - q (ix2 k c)) * (blockUnit x c h w - q (ix2 k c)))

/-- A block that restricts the array to batch `b` and to the rows `H h` has the array's distances there: every
    quantity is built from entries of the one row (b, c, H h, ·), which the block holds whole. -/
theorem blockDist_eq (f : FeatIdx → EReal) (q : ProtoIdx → EReal) (x : BlockIdx → EReal) (b : Fin 2) (H : Fin 32 → Fin 128)
    (hx : ∀ (c : Fin 128) (h : Fin 32) (w : Fin 256), x (ix4 0 c h w) = f (ix4 b c (H h) w))
    (k : Fin 20) (h : Fin 32) (w : Fin 256) : blockDist x q k h w = dist f q b k (H h) w := by
  simp only [blockDist, dist, blockUnit, unit, blockRowLen, rowLen, hx]

/-! ## The law joining the two tails -/

/-- Scaling the negated distance is negating the scaled distance, the factors in either order. -/
theorem neg_scale (d s : EReal) : -(s * d) = -d * s := by
  rw [EReal.neg_mul, mul_comm]

end Cert.ProtoDist

end
-- ==== Proof.RefValue.lean ====
/-
  The reference program's result, index by index, is the specification's formula.

  The reference lays the feature array f(b, c, h, w) out as (b, w, h, c), so the row sum of squares runs over the
  second axis of that layout; the initial value of a sum is the word of zero, which is 0 on the extended reals and
  drops out.  At (b, w, h, c) the normalised feature is f(b, c, h, w) over the clamped row length, the specification's
  `unit` (`feat_unit`).  Broadcast against the normalised prototypes q(k, c), differenced, squared, summed over c and
  rooted, this is the specification's `dist` at (b, k, h, w), read at the reference's index (b, w, h, k) (`ref_dist`);
  the prototypes' own normalisation is carried as one closed term on both sides.  The tail multiplies by the absolute
  scale on the left, transposes back to (b, k, h, w), negates and divides by the word of one:
  (-(|s| * d)) / one, which is (-d * |s|) / one by `Cert.ProtoDist.neg_scale` (`ref_logits`).
-/
import proofs.«156926_j40578851012977_1_alg».proof.Proof.Spec
import proofs.«156926_j40578851012977_1_alg».proof.Proof.Gen.ReferenceIdeal.Read
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

/-- The normalised feature at the reference's index (b, w, h, c): the entry f(b, c, h, w) over the clamped Euclidean
    length of the row (b, c, h, ·).  The two index equations read the composed layout maps at coordinates. -/
theorem feat_unit (x0 : (⟨S2x128x128x256, .f32⟩ : BufTy).Contents (Elt Ideal))
    (b : Fin 2) (w : Fin 256) (h : Fin 128) (c : Fin 128) :
    val_main_v8 (F := Ideal) x0 (ix4 b w h c) = Cert.ProtoDist.unit x0 b c h w := by
  have h0 : idx_main_v0 (ix4 b w h c) = ix4 b c h w :=
    funext fun a => by match a with | ⟨0, _⟩ => rfl | ⟨1, _⟩ => rfl | ⟨2, _⟩ => rfl | ⟨3, _⟩ => rfl
  have hk : ∀ k : Fin 256, idx_main_v0 (idx_main_v2 (idx_main_v3 (idx_main_v7 (ix4 b w h c))) k) = ix4 b c h k :=
    fun k => funext fun a => by match a with | ⟨0, _⟩ => rfl | ⟨1, _⟩ => rfl | ⟨2, _⟩ => rfl | ⟨3, _⟩ => rfl
  simp only [val_main_v8_apply, val_main_v7_apply, val_main_v6_apply, val_main_v4_apply, val_main_v3_apply,
    val_main_v2_apply, val_main_v1_apply, val_main_v0_apply, val_main_v5_apply, val_main_cst_0_apply,
    val_main_cst_apply, h0, hk, Ideal.hostDivf_def, Ideal.maximumf_def, Ideal.hostUnary_sqrt_def, Ideal.ofBits_def,
    Ideal.ofBits_zero_f32, zero_add, Ideal.mulf_def]
  rfl

/-- The rooted sum over c of the squared differences, at the reference's index (b, w, h, k), is the distance from
    the unit features at (b, ·, h, w) to the normalised prototype k. -/
theorem ref_dist (x0 : (⟨S2x128x128x256, .f32⟩ : BufTy).Contents (Elt Ideal))
    (x1 : (⟨S20x128, .f32⟩ : BufTy).Contents (Elt Ideal))
    (b : Fin 2) (w : Fin 256) (h : Fin 128) (k : Fin 20) :
    val_main_v24 (F := Ideal) x0 x1 (ix4 b w h k)
      = Cert.ProtoDist.dist x0 (val_main_v16 (F := Ideal) x1) b k h w := by
  have hu : ∀ c : Fin 128, idx_main_v17 (idx_main_v19 (idx_main_v23 (ix4 b w h k) c)) = ix4 b w h c :=
    fun c => funext fun a => by match a with | ⟨0, _⟩ => rfl | ⟨1, _⟩ => rfl | ⟨2, _⟩ => rfl | ⟨3, _⟩ => rfl
  have hq : ∀ c : Fin 128, idx_main_v18 (idx_main_v20 (idx_main_v23 (ix4 b w h k) c)) = ix2 k c :=
    fun c => funext fun a => by match a with | ⟨0, _⟩ => rfl | ⟨1, _⟩ => rfl
  simp only [val_main_v24_apply, val_main_v23_apply, val_main_v22_apply, val_main_v21_apply, val_main_v19_apply,
    val_main_v17_apply, val_main_v20_apply, val_main_v18_apply, val_main_cst_3_apply, hu, hq, feat_unit,
    Ideal.hostUnary_sqrt_def, Ideal.ofBits_def, Ideal.ofBits_zero_f32, zero_add, Ideal.mulf_def, Ideal.subf_def]
  rfl

/-- The reference's result is the specification's `logits` of the features, the normalised prototypes and the
    absolute value of the scale. -/
theorem ref_logits (x0 : (⟨S2x128x128x256, .f32⟩ : BufTy).Contents (Elt Ideal))
    (x1 : (⟨S20x128, .f32⟩ : BufTy).Contents (Elt Ideal)) (x2 : (⟨S1, .f32⟩ : BufTy).Contents (Elt Ideal)) :
    Cert.ReferenceIdeal.Read.val_main_v32 (F := Ideal) x0 x1 x2
      = Cert.ProtoDist.logits x0 (Cert.ReferenceIdeal.Read.val_main_v16 (F := Ideal) x1)
          (FloatOps.hostAbsf (F := Ideal) (φ := .f32) (x2 (ValueIdx.ix1 0))) := by
  funext i
  obtain ⟨b, k, h, w, rfl⟩ : ∃ (b : Fin 2) (k : Fin 20) (h : Fin 128) (w : Fin 256), i = ix4 b k h w :=
    ⟨i 0, i 1, i 2, i 3, eq_ix4 i⟩
  have h29 : idx_main_v29 (ix4 b k h w) = ix4 b w h k :=
    funext fun a => by match a with | ⟨0, _⟩ => rfl | ⟨1, _⟩ => rfl | ⟨2, _⟩ => rfl | ⟨3, _⟩ => rfl
  have h26 : idx_main_v26 (idx_main_v27 (ix4 b w h k)) = ix1 0 :=
    funext fun a => by match a with | ⟨0, _⟩ => rfl
  simp only [val_main_v32_apply, val_main_v30_apply, val_main_v29_apply, val_main_v28_apply, val_main_v27_apply,
    val_main_v26_apply, val_main_v25_apply, val_main_v31_apply, val_main_cst_4_apply, h29, h26, ref_dist,
    Ideal.hostDivf_def, Ideal.hostNegf_def, Ideal.negf_def, Ideal.mulf_def, Ideal.ofBits_def]
  show Ideal.div (-(_ * _)) _ = Ideal.div (-_ * _) _
  rw [Cert.ProtoDist.neg_scale]
  rfl

end Cert.ReferenceIdeal.RefValue

end
-- ==== Proof.Body.lean ====
/-
  The kernel body's arithmetic on one block, read at an index, at the extended reals.

  The body loads a block x of shape [1, 128, 32, 256], indexed (0, c, h, w), and the whole [20, 128] prototype array q.
  First it divides every entry by the clamped length of its row along w (`unit_apply`: the lane sum is a sum over w of
  squares, the square root and the clamp are taken per (c, h) and repeated along w).  Then, for each prototype k, it takes
  row k of q, lays it along the c axis and repeats it over h and w (`protoCol_apply`: a slice, two changes of shape and a
  broadcast, all of which only move entries), subtracts, squares, sums over c and takes the square root
  (`distTail_apply`: the sum over the second axis is a sum over c), storing the [32, 256] result as a [1, 1, 32, 256] piece.
-/
import proofs.«156926_j40578851012977_1_alg».proof.Proof.Gen.KernelIdeal.Skeleton
import proofs.«156926_j40578851012977_1_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Body

open Idealize.ShloMosaic Idealize.ShloMosaic.ValueIdx Cert.KernelIdeal Cert.KernelIdeal.Gen Cert.ProtoDist

variable [Facts]

/-- The body's first value, the block with every row along w brought to (clamped) unit length, at (0, c, h, w):
    the entry over the maximum of the square root of its row's sum of squares and the clamp. -/
theorem unit_apply (v0 : Vec Ideal S1x128x32x256 .f32) (c : Fin 128) (h : Fin 32) (w : Fin 256) :
    k0_pay3 (F := Ideal) v0 (ix4 0 c h w) = blockUnit v0 c h w := by
  unfold k0_pay3
  show Ideal.div (v0 (ix4 0 c h w)) _ = _
  unfold blockUnit blockRowLen
  congr 1
  refine (broadcastTo_apply _ broadcasts_S1x128x32x1_S1x128x32x256 (ix4 0 c h w) (ix4 0 c h 0) ?_).trans ?_
  · intro a
    match a with
    | ⟨0, _⟩ => rfl
    | ⟨1, _⟩ => rfl
    | ⟨2, _⟩ => rfl
    | ⟨3, _⟩ => rfl
  · refine (maximumf_apply _ _ _).trans ?_
    refine congrArg₂ max ?_ rfl
    refine congrArg Ideal.sqrt ?_
    refine (shapeCast_apply _ shapeCasts_S1x128x32_S1x128x32x1 (ix4 0 c h 0) (ix3 0 c h) ?_).trans ?_
    · rw [Shape.rowMajor_val_three, Shape.rowMajor_val_four]
      show ((0 * 128 + c.val) * 32 + h.val) = (((0 * 128 + c.val) * 32 + h.val) * 1 + 0)
      omega
    · refine (Ideal.multiReduction_add_single (mulf v0 v0) 0x00000000#32 reduces_S1x128x32x256_S1x128x32 _ _ (ix3 0 c h)).trans ?_
      refine Finset.sum_congr rfl fun w' _ => ?_
      have e : reduces_S1x128x32x256_S1x128x32.lift (ix3 0 c h) w' = ix4 0 c h w' := by
        funext a; apply Fin.ext
        match a with
        | ⟨0, _⟩ => rfl
        | ⟨1, _⟩ => rfl
        | ⟨2, _⟩ => rfl
        | ⟨3, _⟩ => rfl
      exact congrArg (fun i => v0 i * v0 i) e

/-- Row `o 0` of the prototypes, laid along the c axis and repeated over h and w. -/
def protoCol (o : Fin 2 → ℕ) (hs : S20x128.Slices o S1x128) (v10 : FVec Ideal S20x128 .f32) : FVec Ideal S1x128x32x256 .f32 :=
  broadcastTo S1x128x32x256 (shapeCast S1x128x1x1 (shapeCast S128 (extractStridedSlice S1x128 o v10 hs) shapeCasts_S1x128_S128) shapeCasts_S128_S1x128x1x1) broadcasts_S1x128x1x1_S1x128x32x256

theorem protoCol_apply (o : Fin 2 → ℕ) (hs : S20x128.Slices o S1x128) (v10 : FVec Ideal S20x128 .f32) (k : Fin 20)
    (ho0 : o 0 = k.val) (ho1 : o 1 = 0) (c : Fin 128) (h : Fin 32) (w : Fin 256) :
    protoCol o hs v10 (ix4 0 c h w) = v10 (ix2 k c) := by
  unfold protoCol
  refine (broadcastTo_apply _ broadcasts_S1x128x1x1_S1x128x32x256 (ix4 0 c h w) (ix4 0 c 0 0) ?_).trans ?_
  · intro a
    match a with
    | ⟨0, _⟩ => rfl
    | ⟨1, _⟩ => rfl
    | ⟨2, _⟩ => rfl
    | ⟨3, _⟩ => rfl
  refine (shapeCast_apply _ shapeCasts_S128_S1x128x1x1 (ix4 0 c 0 0) (ix1 c) ?_).trans ?_
  · rw [Shape.rowMajor_val_one, Shape.rowMajor_val_four]
    show c.val = (((0 * 128 + c.val) * 1 + 0) * 1 + 0)
    omega
  refine (shapeCast_apply _ shapeCasts_S1x128_S128 (ix1 c) (ix2 0 c) ?_).trans ?_
  · rw [Shape.rowMajor_val_one, Shape.rowMajor_val_two]
    show 0 * 128 + c.val = c.val
    omega
  refine extractStridedSlice_apply o v10 hs (ix2 0 c) (ix2 k c) ?_
  intro a
  match a with
  | ⟨0, _⟩ => show k.val = o 0 + 0; omega
  | ⟨1, _⟩ => show c.val = o 1 + c.val; omega

/-- The distance, along c, between two arrays of one block's shape, stored as a [1, 1, 32, 256] piece. -/
def distTail (v8 col : FVec Ideal S1x128x32x256 .f32) : FVec Ideal S1x1x32x256 .f32 :=
  shapeCast S1x1x32x256 (shapeCast S32x256 (sqrt (multiReduction .add [1] S1x32x256 (mulf (subf v8 col) (subf v8 col)) 0x00000000#32 reduces_S1x128x32x256_S1x32x256 (.inl rfl) rfl)) shapeCasts_S1x32x256_S32x256) shapeCasts_S32x256_S1x1x32x256

theorem distTail_apply (v8 col : FVec Ideal S1x128x32x256 .f32) (h : Fin 32) (w : Fin 256) :
    distTail v8 col (ix4 0 0 h w) = Ideal.sqrt (∑ c : Fin 128, (v8 (ix4 0 c h w) - col (ix4 0 c h w)) * (v8 (ix4 0 c h w) - col (ix4 0 c h w))) := by
  unfold distTail
  refine (shapeCast_apply _ shapeCasts_S32x256_S1x1x32x256 (ix4 0 0 h w) (ix2 h w) ?_).trans ?_
  · rw [Shape.rowMajor_val_two, Shape.rowMajor_val_four]
    show h.val * 256 + w.val = (((0 * 1 + 0) * 32 + h.val) * 256 + w.val)
    omega
  refine (shapeCast_apply _ shapeCasts_S1x32x256_S32x256 (ix2 h w) (ix3 0 h w) ?_).trans ?_
  · rw [Shape.rowMajor_val_two, Shape.rowMajor_val_three]
    show ((0 * 32 + h.val) * 256 + w.val) = h.val * 256 + w.val
    omega
  refine congrArg Ideal.sqrt ?_
  refine (Ideal.multiReduction_add_single (mulf (subf v8 col) (subf v8 col)) 0x00000000#32 reduces_S1x128x32x256_S1x32x256 _ _ (ix3 0 h w)).trans ?_
  refine Finset.sum_congr rfl fun c _ => ?_
  have e : reduces_S1x128x32x256_S1x32x256.lift (ix3 0 h w) c = ix4 0 c h w := by
    funext a; apply Fin.ext
    match a with
    | ⟨0, _⟩ => rfl
    | ⟨1, _⟩ => rfl
    | ⟨2, _⟩ => rfl
    | ⟨3, _⟩ => rfl
  exact congrArg (fun i => (v8 i - col i) * (v8 i - col i)) e

end Cert.KernelIdeal.Body

end
-- ==== Proof.Block.lean ====
/-
  The whole output block of one grid point, as one function of the block index.

  The body stores twenty [1, 1, 32, 256] pieces, piece k at offset (0, k, 0, 0) of the [1, 20, 32, 256] output buffer.
  Each piece is the distance, along c, from the block's unit-length features to prototype k (Body.lean reads the arithmetic
  at an index); together they tile the buffer, so the buffer ends holding, at (0, k, h, w), the block distance
  `blockDist x q k h w` of the specification (`out_eq`).
-/
import proofs.«156926_j40578851012977_1_alg».proof.Proof.Body
import proofs.«156926_j40578851012977_1_alg».proof.Proof.Gen.KernelIdeal.Frame

noncomputable section

open scoped BigOperators

namespace Cert.KernelIdeal.Body

open Idealize.ShloMosaic Idealize.ShloMosaic.ValueIdx Cert.KernelIdeal Cert.KernelIdeal.Gen Cert.ProtoDist

variable [Facts]

/-! ## The twenty stored pieces

Piece k of the block the body leaves (k = 0 … 19) is the distance, along c, between the unit-length block and row k of the
prototypes laid along c: the body's text for it, however it is cut into named values, unfolds to exactly that. -/

theorem piece0 (X0 : Vec Ideal S1x128x32x256 .f32) (X1 : Vec Ideal S20x128 .f32) :
    k0_pay5 X0 X1 = distTail (k0_pay3 X0) (protoCol ![0, 0] slices_S20x128_o0_0_S1x128 (k0_pay4 X1)) := rfl
theorem piece1 (X0 : Vec Ideal S1x128x32x256 .f32) (X1 : Vec Ideal S20x128 .f32) :
    k0_pay6 X0 X1 = distTail (k0_pay3 X0) (protoCol ![1, 0] slices_S20x128_o1_0_S1x128 (k0_pay4 X1)) := rfl
theorem piece2 (X0 : Vec Ideal S1x128x32x256 .f32) (X1 : Vec Ideal S20x128 .f32) :
    k0_pay8 (k0_pay3 X0) (k0_pay7 X1) = distTail (k0_pay3 X0) (protoCol ![2, 0] slices_S20x128_o2_0_S1x128 (k0_pay4 X1)) := rfl
theorem piece3 (X0 : Vec Ideal S1x128x32x256 .f32) (X1 : Vec Ideal S20x128 .f32) :
    k0_pay9 (k0_pay3 X0) (k0_pay4 X1) = distTail (k0_pay3 X0) (protoCol ![3, 0] slices_S20x128_o3_0_S1x128 (k0_pay4 X1)) := rfl
theorem piece4 (X0 : Vec Ideal S1x128x32x256 .f32) (X1 : Vec Ideal S20x128 .f32) :
    k0_pay10 (k0_pay3 X0) (k0_pay4 X1) = distTail (k0_pay3 X0) (protoCol ![4, 0] slices_S20x128_o4_0_S1x128 (k0_pay4 X1)) := rfl
theorem piece5 (X0 : Vec Ideal S1x128x32x256 .f32) (X1 : Vec Ideal S20x128 .f32) :
    k0_pay12 (k0_pay11 (k0_pay3 X0) (k0_pay4 X1)) = distTail (k0_pay3 X0) (protoCol ![5, 0] slices_S20x128_o5_0_S1x128 (k0_pay4 X1)) := rfl
theorem piece6 (X0 : Vec Ideal S1x128x32x256 .f32) (X1 : Vec Ideal S20x128 .f32) :
    k0_pay13 (k0_pay3 X0) (k0_pay4 X1) = distTail (k0_pay3 X0) (protoCol ![6, 0] slices_S20x128_o6_0_S1x128 (k0_pay4 X1)) := rfl
theorem piece7 (X0 : Vec Ideal S1x128x32x256 .f32) (X1 : Vec Ideal S20x128 .f32) :
    k0_pay14 (k0_pay3 X0) (k0_pay4 X1) = distTail (k0_pay3 X0) (protoCol ![7, 0] slices_S20x128_o7_0_S1x128 (k0_pay4 X1)) := rfl
theorem piece8 (X0 : Vec Ideal S1x128x32x256 .f32) (X1 : Vec Ideal S20x128 .f32) :
    k0_pay16 (k0_pay15 (k0_pay3 X0) (k0_pay4 X1)) = distTail (k0_pay3 X0) (protoCol ![8, 0] slices_S20x128_o8_0_S1x128 (k0_pay4 X1)) := rfl
theorem piece9 (X0 : Vec Ideal S1x128x32x256 .f32) (X1 : Vec Ideal S20x128 .f32) :
    k0_pay17 (k0_pay3 X0) (k0_pay4 X1) = distTail (k0_pay3 X0) (protoCol ![9, 0] slices_S20x128_o9_0_S1x128 (k0_pay4 X1)) := rfl
theorem piece10 (X0 : Vec Ideal S1x128x32x256 .f32) (X1 : Vec Ideal S20x128 .f32) :
    k0_pay18 (k0_pay3 X0) (k0_pay4 X1) = distTail (k0_pay3 X0) (protoCol ![10, 0] slices_S20x128_o10_0_S1x128 (k0_pay4 X1)) := rfl
theorem piece11 (X0 : Vec Ideal S1x128x32x256 .f32) (X1 : Vec Ideal S20x128 .f32) :
    k0_pay19 (k0_pay3 X0) (k0_pay4 X1) = distTail (k0_pay3 X0) (protoCol ![11, 0] slices_S20x128_o11_0_S1x128 (k0_pay4 X1)) := rfl
theorem piece12 (X0 : Vec Ideal S1x128x32x256 .f32) (X1 : Vec Ideal S20x128 .f32) :
    k0_pay21 (k0_pay3 X0) (k0_pay20 (k0_pay4 X1)) = distTail (k0_pay3 X0) (protoCol ![12, 0] slices_S20x128_o12_0_S1x128 (k0_pay4 X1)) := rfl
theorem piece13 (X0 : Vec Ideal S1x128x32x256 .f32) (X1 : Vec Ideal S20x128 .f32) :
    k0_pay22 (k0_pay3 X0) (k0_pay4 X1) = distTail (k0_pay3 X0) (protoCol ![13, 0] slices_S20x128_o13_0_S1x128 (k0_pay4 X1)) := rfl
theorem piece14 (X0 : Vec Ideal S1x128x32x256 .f32) (X1 : Vec Ideal S20x128 .f32) :
    k0_pay23 (k0_pay3 X0) (k0_pay4 X1) = distTail (k0_pay3 X0) (protoCol ![14, 0] slices_S20x128_o14_0_S1x128 (k0_pay4 X1)) := rfl
theorem piece15 (X0 : Vec Ideal S1x128x32x256 .f32) (X1 : Vec Ideal S20x128 .f32) :
    k0_pay25 (k0_pay24 (k0_pay3 X0) (k0_pay4 X1)) = distTail (k0_pay3 X0) (protoCol ![15, 0] slices_S20x128_o15_0_S1x128 (k0_pay4 X1)) := rfl
theorem piece16 (X0 : Vec Ideal S1x128x32x256 .f32) (X1 : Vec Ideal S20x128 .f32) :
    k0_pay26 (k0_pay3 X0) (k0_pay4 X1) = distTail (k0_pay3 X0) (protoCol ![16, 0] slices_S20x128_o16_0_S1x128 (k0_pay4 X1)) := rfl
theorem piece17 (X0 : Vec Ideal S1x128x32x256 .f32) (X1 : Vec Ideal S20x128 .f32) :
    k0_pay27 (k0_pay3 X0) (k0_pay4 X1) = distTail (k0_pay3 X0) (protoCol ![17, 0] slices_S20x128_o17_0_S1x128 (k0_pay4 X1)) := rfl
theorem piece18 (X0 : Vec Ideal S1x128x32x256 .f32) (X1 : Vec Ideal S20x128 .f32) :
    k0_pay1 (k0_pay28 (k0_pay3 X0) (k0_pay4 X1)) = distTail (k0_pay3 X0) (protoCol ![18, 0] slices_S20x128_o18_0_S1x128 (k0_pay4 X1)) := rfl
theorem piece19 (X0 : Vec Ideal S1x128x32x256 .f32) (X1 : Vec Ideal S20x128 .f32) :
    k0_pay2 (k0_pay3 X0) (k0_pay4 X1) = distTail (k0_pay3 X0) (protoCol ![19, 0] slices_S20x128_o19_0_S1x128 (k0_pay4 X1)) := rfl

/-- The block's distances as one function of the block index (0, k, h, w). -/
def blockOut (x0 : BlockIdx → EReal) (x1 : ProtoIdx → EReal) : S1x20x32x256.Idx → EReal :=
  fun y => blockDist x0 x1 (y 1) (y 2) (y 3)

/-- A piece read at its own index (0, 0, h, w) is the block's distance at the block index the piece's rectangle places
    it at, (0, k, h, w): the rectangle starts at (0, k, 0, 0) and has unit stride, so it moves only the second coordinate. -/
theorem piece_at (o : Fin 2 → ℕ) (hs : S20x128.Slices o S1x128) (k : Fin 20) (ho0 : o 0 = k.val) (ho1 : o 1 = 0)
    (off : Fin 4 → ℕ) (inb : ∀ a, off a + S1x1x32x256.size a ≤ S1x20x32x256.size a)
    (h0 : off 0 = 0) (h1 : off 1 = k.val) (h2 : off 2 = 0) (h3 : off 3 = 0)
    (x0 : Vec Ideal S1x128x32x256 .f32) (x1 : Vec Ideal S20x128 .f32) (x : S1x1x32x256.Idx) :
    distTail (k0_pay3 x0) (protoCol o hs (k0_pay4 x1)) x
      = blockOut x0 x1 ((Rect.unit (s := S1x20x32x256) off S1x1x32x256.size inb).emb x) := by
  obtain ⟨a, b, h, w, rfl⟩ : ∃ (a : Fin 1) (b : Fin 1) (h : Fin 32) (w : Fin 256), x = ix4 a b h w :=
    ⟨x 0, x 1, x 2, x 3, eq_ix4 x⟩
  obtain rfl : a = 0 := Subsingleton.elim _ _
  obtain rfl : b = 0 := Subsingleton.elim _ _
  rw [distTail_apply]
  unfold blockOut blockDist
  have e1 : ((Rect.unit (s := S1x20x32x256) off S1x1x32x256.size inb).emb (ix4 0 0 h w)) 1 = k :=
    Fin.ext (by show off 1 + 1 * 0 = k.val; omega)
  have e2 : ((Rect.unit (s := S1x20x32x256) off S1x1x32x256.size inb).emb (ix4 0 0 h w)) 2 = h :=
    Fin.ext (by show off 2 + 1 * h.val = h.val; omega)
  have e3 : ((Rect.unit (s := S1x20x32x256) off S1x1x32x256.size inb).emb (ix4 0 0 h w)) 3 = w :=
    Fin.ext (by show off 3 + 1 * w.val = w.val; omega)
  rw [e1, e2, e3]
  refine congrArg Ideal.sqrt (Finset.sum_congr rfl fun c _ => ?_)
  rw [unit_apply, protoCol_apply o hs _ k ho0 ho1]
  unfold k0_pay4
  rw [shapeCast_self]

/-- The offsets of a whole-buffer access are all zero. -/
theorem zero4 : (![0, 0, 0, 0] : Fin 4 → ℕ) = fun _ => 0 := funext fun a => by fin_cases a <;> rfl
/-- The same at rank two. -/
theorem zero2 : (![0, 0] : Fin 2 → ℕ) = fun _ => 0 := funext fun a => by fin_cases a <;> rfl

/-- WHAT THE BODY LEAVES in the output buffer, from the two blocks it loads: at every block index (0, k, h, w) the distance
    from the unit-length features at (·, h, w) to prototype k.  The twenty pieces tile the buffer (each index lies under
    exactly the piece of its k), and each piece agrees with this one function of the block index. -/
theorem out_eq (x0 : Vec Ideal S1x128x32x256 .f32) (x1 : Vec Ideal S20x128 .f32) :
    out0_2 x0 x1 = blockOut x0 x1 := by
  funext y
  unfold out0_2
  simp only [View.ld_unit_zero (S := S1x128x32x256) zero4, View.ld_unit_zero (S := S20x128) zero2]
  refine View.canon_apply_of_pieces (Val := Elt Ideal) (e := .f32) (blockOut x0 x1) _ ?_ y (cover0_2 _ _ _ _ _ _ _ _ _ _ _ _ _ _ _ _ _ _ _ _ y)
  intro p hp
  simp only [List.mem_cons, List.mem_nil_iff, or_false] at hp
  rcases hp with rfl | rfl | rfl | rfl | rfl | rfl | rfl | rfl | rfl | rfl | rfl | rfl | rfl | rfl | rfl | rfl | rfl | rfl | rfl | rfl
  · intro x; exact (congrFun (piece19 x0 x1) x).trans (piece_at ![19, 0] slices_S20x128_o19_0_S1x128 19 rfl rfl ![0, 19, 0, 0] inb_S1x20x32x256_S1x1x32x256_0_19_0_0 rfl rfl rfl rfl x0 x1 x)
  · intro x; exact (congrFun (piece18 x0 x1) x).trans (piece_at ![18, 0] slices_S20x128_o18_0_S1x128 18 rfl rfl ![0, 18, 0, 0] inb_S1x20x32x256_S1x1x32x256_0_18_0_0 rfl rfl rfl rfl x0 x1 x)
  · intro x; exact (congrFun (piece17 x0 x1) x).trans (piece_at ![17, 0] slices_S20x128_o17_0_S1x128 17 rfl rfl ![0, 17, 0, 0] inb_S1x20x32x256_S1x1x32x256_0_17_0_0 rfl rfl rfl rfl x0 x1 x)
  · intro x; exact (congrFun (piece16 x0 x1) x).trans (piece_at ![16, 0] slices_S20x128_o16_0_S1x128 16 rfl rfl ![0, 16, 0, 0] inb_S1x20x32x256_S1x1x32x256_0_16_0_0 rfl rfl rfl rfl x0 x1 x)
  · intro x; exact (congrFun (piece15 x0 x1) x).trans (piece_at ![15, 0] slices_S20x128_o15_0_S1x128 15 rfl rfl ![0, 15, 0, 0] inb_S1x20x32x256_S1x1x32x256_0_15_0_0 rfl rfl rfl rfl x0 x1 x)
  · intro x; exact (congrFun (piece14 x0 x1) x).trans (piece_at ![14, 0] slices_S20x128_o14_0_S1x128 14 rfl rfl ![0, 14, 0, 0] inb_S1x20x32x256_S1x1x32x256_0_14_0_0 rfl rfl rfl rfl x0 x1 x)
  · intro x; exact (congrFun (piece13 x0 x1) x).trans (piece_at ![13, 0] slices_S20x128_o13_0_S1x128 13 rfl rfl ![0, 13, 0, 0] inb_S1x20x32x256_S1x1x32x256_0_13_0_0 rfl rfl rfl rfl x0 x1 x)
  · intro x; exact (congrFun (piece12 x0 x1) x).trans (piece_at ![12, 0] slices_S20x128_o12_0_S1x128 12 rfl rfl ![0, 12, 0, 0] inb_S1x20x32x256_S1x1x32x256_0_12_0_0 rfl rfl rfl rfl x0 x1 x)
  · intro x; exact (congrFun (piece11 x0 x1) x).trans (piece_at ![11, 0] slices_S20x128_o11_0_S1x128 11 rfl rfl ![0, 11, 0, 0] inb_S1x20x32x256_S1x1x32x256_0_11_0_0 rfl rfl rfl rfl x0 x1 x)
  · intro x; exact (congrFun (piece10 x0 x1) x).trans (piece_at ![10, 0] slices_S20x128_o10_0_S1x128 10 rfl rfl ![0, 10, 0, 0] inb_S1x20x32x256_S1x1x32x256_0_10_0_0 rfl rfl rfl rfl x0 x1 x)
  · intro x; exact (congrFun (piece9 x0 x1) x).trans (piece_at ![9, 0] slices_S20x128_o9_0_S1x128 9 rfl rfl ![0, 9, 0, 0] inb_S1x20x32x256_S1x1x32x256_0_9_0_0 rfl rfl rfl rfl x0 x1 x)
  · intro x; exact (congrFun (piece8 x0 x1) x).trans (piece_at ![8, 0] slices_S20x128_o8_0_S1x128 8 rfl rfl ![0, 8, 0, 0] inb_S1x20x32x256_S1x1x32x256_0_8_0_0 rfl rfl rfl rfl x0 x1 x)
  · intro x; exact (congrFun (piece7 x0 x1) x).trans (piece_at ![7, 0] slices_S20x128_o7_0_S1x128 7 rfl rfl ![0, 7, 0, 0] inb_S1x20x32x256_S1x1x32x256_0_7_0_0 rfl rfl rfl rfl x0 x1 x)
  · intro x; exact (congrFun (piece6 x0 x1) x).trans (piece_at ![6, 0] slices_S20x128_o6_0_S1x128 6 rfl rfl ![0, 6, 0, 0] inb_S1x20x32x256_S1x1x32x256_0_6_0_0 rfl rfl rfl rfl x0 x1 x)
  · intro x; exact (congrFun (piece5 x0 x1) x).trans (piece_at ![5, 0] slices_S20x128_o5_0_S1x128 5 rfl rfl ![0, 5, 0, 0] inb_S1x20x32x256_S1x1x32x256_0_5_0_0 rfl rfl rfl rfl x0 x1 x)
  · intro x; exact (congrFun (piece4 x0 x1) x).trans (piece_at ![4, 0] slices_S20x128_o4_0_S1x128 4 rfl rfl ![0, 4, 0, 0] inb_S1x20x32x256_S1x1x32x256_0_4_0_0 rfl rfl rfl rfl x0 x1 x)
  · intro x; exact (congrFun (piece3 x0 x1) x).trans (piece_at ![3, 0] slices_S20x128_o3_0_S1x128 3 rfl rfl ![0, 3, 0, 0] inb_S1x20x32x256_S1x1x32x256_0_3_0_0 rfl rfl rfl rfl x0 x1 x)
  · intro x; exact (congrFun (piece2 x0 x1) x).trans (piece_at ![2, 0] slices_S20x128_o2_0_S1x128 2 rfl rfl ![0, 2, 0, 0] inb_S1x20x32x256_S1x1x32x256_0_2_0_0 rfl rfl rfl rfl x0 x1 x)
  · intro x; exact (congrFun (piece1 x0 x1) x).trans (piece_at ![1, 0] slices_S20x128_o1_0_S1x128 1 rfl rfl ![0, 1, 0, 0] inb_S1x20x32x256_S1x1x32x256_0_1_0_0 rfl rfl rfl rfl x0 x1 x)
  · intro x; exact (congrFun (piece0 x0 x1) x).trans (piece_at ![0, 0] slices_S20x128_o0_0_S1x128 0 rfl rfl ![0, 0, 0, 0] inb_S1x20x32x256_S1x1x32x256_0_0_0_0 rfl rfl rfl rfl x0 x1 x)

end Cert.KernelIdeal.Body

end
-- ==== Proof.Blocks.lean ====
/-
  From one grid point's block to the whole output array.

  The grid has eight points (b, g), b < 2 a batch and g < 4 a group of 32 rows.  At point (b, g) the feature window holds
  f(b, ·, 32 g + ·, ·), the prototype window the whole prototype array, and the output window receives the block
  (b, ·, 32 g + ·, ·) of the result.  A row along w lies inside one block, so the block distances of Block.lean are the
  array's distances `Cert.ProtoDist.distArr` restricted to the block (`flushed_eq`); the eight blocks cover the array
  (`cover`), hence the array ends holding `distArr` of the features and prototypes the region was entered with (`final`).
-/
import proofs.«156926_j40578851012977_1_alg».proof.Proof.Block
import proofs.«156926_j40578851012977_1_alg».proof.Proof.Gen.KernelIdeal.Frame

set_option maxRecDepth 16384

noncomputable section

open scoped BigOperators

namespace Cert.KernelIdeal.Blocks

open Idealize.ShloMosaic Idealize.ShloMosaic.TcCoe Idealize.ShloMosaic.ValueIdx Idealize.SL.Sem
open Cert.KernelIdeal Cert.KernelIdeal.Gen Cert.KernelIdeal.Body Cert.ProtoDist
open Idealize.ShloMosaic.Pipeline (Dat)

variable (m : (ℓ : Loc nD τ sig) → Buf (Elt Ideal) ℓ)

/-- Row `h` of h-block `g` is row `32 g + h` of the array. -/
def hrow (g : Fin 4) (h : Fin 32) : Fin 128 := ⟨g.val * 32 + h.val, by omega⟩

/-- A block that holds batch `b`, rows 32 g … 32 g + 31, has at its index y the array's distance at the array index i with
    the same k and w, batch b and row 32 g + (y's row): stated over plain variables, the coordinates as equations. -/
theorem blockOut_eq (f : FeatIdx → EReal) (q : ProtoIdx → EReal) (x0 : BlockIdx → EReal) (b : Fin 2) (g : Fin 4)
    (hx0 : ∀ (c : Fin 128) (h : Fin 32) (w : Fin 256), x0 (ix4 0 c h w) = f (ix4 b c (hrow g h) w))
    (y : S1x20x32x256.Idx) (i : OutIdx)
    (h0 : (i 0).val = b.val) (h1 : (i 1).val = (y 1).val) (h2 : (i 2).val = g.val * 32 + (y 2).val) (h3 : (i 3).val = (y 3).val) :
    blockOut x0 q y = distArr f q i := by
  obtain ⟨b', k, h', w, rfl⟩ : ∃ (b' : Fin 2) (k : Fin 20) (h' : Fin 128) (w : Fin 256), i = ix4 b' k h' w :=
    ⟨i 0, i 1, i 2, i 3, eq_ix4 i⟩
  obtain ⟨a, k2, h, w2, rfl⟩ : ∃ (a : Fin 1) (k2 : Fin 20) (h : Fin 32) (w2 : Fin 256), y = ix4 a k2 h w2 :=
    ⟨y 0, y 1, y 2, y 3, eq_ix4 y⟩
  obtain rfl : b' = b := Fin.ext h0
  obtain rfl : k = k2 := Fin.ext h1
  obtain rfl : h' = hrow g h := Fin.ext h2
  obtain rfl : w = w2 := Fin.ext h3
  exact blockDist_eq f q x0 b' (hrow g) hx0 k h w

/-- The index maps, decided over the eight grid points: the feature window moves with the output window on the batch
    and row axes and stays at 0 on the others; the prototype window never moves; the output's block indices are (b, 0, g, 0)
    with b ≤ 1 and g ≤ 3. -/
theorem idx_facts : ∀ t : Fin cfg0.N,
    win0_0.index t (0 : Fin 4) = win0_2.index t (0 : Fin 4) ∧ win0_0.index t (1 : Fin 4) = 0
    ∧ win0_0.index t (2 : Fin 4) = win0_2.index t (2 : Fin 4) ∧ win0_0.index t (3 : Fin 4) = 0
    ∧ win0_1.index t (0 : Fin 2) = 0 ∧ win0_1.index t (1 : Fin 2) = 0
    ∧ win0_2.index t (1 : Fin 4) = 0 ∧ win0_2.index t (3 : Fin 4) = 0
    ∧ win0_2.index t (0 : Fin 4) ≤ 1 ∧ win0_2.index t (2 : Fin 4) ≤ 3 :=
  (by decide +kernel : ∀ t : Fin grid0.N, _)

/-- Every (b, g) is some grid point's output block. -/
theorem idx_onto : ∀ (q0 : Fin 2) (q2 : Fin 4), ∃ t : Fin cfg0.N, win0_2.index t = ![q0.val, 0, q2.val, 0] :=
  (by decide +kernel : ∀ (q0 : Fin 2) (q2 : Fin 4), ∃ t : Fin grid0.N, win0_2.index t = ![q0.val, 0, q2.val, 0])

/-- WHAT POINT t WRITES BACK is block t of the distance array of the features and the prototype array as the region finds
    them: the body leaves the block distances of its two input blocks; the prototype block is the whole prototype array;
    the feature block is the restriction of the feature array to the point's batch and rows; and a block's coordinate is
    the block index times the block size plus the coordinate inside the block. -/
theorem flushed_eq (c : Dev nD) (t : Fin cfg0.N) :
    (dats m 0 c).flushed 2 t = ((cfg0.win 2).blk t).view.read (Elt Ideal) (distArr (V m c main_arg0) (V m c main_v7)) := by
  show (cfg0.win 2).cut (grid0.coords t) ((dats m 0 c).after 2 t) = _
  rw [after0_2, out_eq]
  obtain ⟨e0, e1, e2, e3, e4, e5, e6, e7, e8, e9⟩ := idx_facts t
  funext y
  show blockOut (iblk m c 0 t) (iblk m c 1 t) y
    = distArr (V m c main_arg0) (V m c main_v7) (((cfg0.win 2).blk t).view.emb y)
  have hq : iblk m c 1 t = V m c main_v7 := by
    funext j
    show V m c main_v7 (((cfg0.win 1).blk t).view.emb j) = V m c main_v7 j
    congr 1; funext a; apply Fin.ext
    match a with
    | ⟨0, _⟩ => show win0_1.index t (0 : Fin 2) * 20 + 1 * (j 0).val = (j 0).val; omega
    | ⟨1, _⟩ => show win0_1.index t (1 : Fin 2) * 128 + 1 * (j 1).val = (j 1).val; omega
  rw [hq]
  have hy0 : (y 0).val < 1 := (y 0).isLt
  refine blockOut_eq (V m c main_arg0) (V m c main_v7) (iblk m c 0 t) ⟨win0_2.index t (0 : Fin 4), by omega⟩
    ⟨win0_2.index t (2 : Fin 4), by omega⟩ ?_ y _ ?_ ?_ ?_ ?_
  · intro c' h' w'
    show V m c main_arg0 (((cfg0.win 0).blk t).view.emb (ix4 0 c' h' w')) = _
    congr 1; funext a; apply Fin.ext
    match a with
    | ⟨0, _⟩ => show win0_0.index t (0 : Fin 4) * 1 + 1 * 0 = win0_2.index t (0 : Fin 4); omega
    | ⟨1, _⟩ => show win0_0.index t (1 : Fin 4) * 128 + 1 * c'.val = c'.val; omega
    | ⟨2, _⟩ => show win0_0.index t (2 : Fin 4) * 32 + 1 * h'.val = win0_2.index t (2 : Fin 4) * 32 + h'.val; omega
    | ⟨3, _⟩ => show win0_0.index t (3 : Fin 4) * 256 + 1 * w'.val = w'.val; omega
  · show win0_2.index t (0 : Fin 4) * 1 + 1 * (y 0).val = win0_2.index t (0 : Fin 4); omega
  · show win0_2.index t (1 : Fin 4) * 20 + 1 * (y 1).val = (y 1).val; omega
  · show win0_2.index t (2 : Fin 4) * 32 + 1 * (y 2).val = win0_2.index t (2 : Fin 4) * 32 + (y 2).val; omega
  · show win0_2.index t (3 : Fin 4) * 256 + 1 * (y 3).val = (y 3).val; omega

/-- An index is in point t's output block iff each coordinate is in the block's range on its axis. -/
theorem mem_blk (t : Fin cfg0.N) (i : S2x20x128x256.Idx) :
    i ∈ ((cfg0.win 2).blk t).view.set ↔ ∀ a : Fin 4, win0_2.index t a * S1x20x32x256.size a ≤ (i a).val
      ∧ (i a).val < win0_2.index t a * S1x20x32x256.size a + S1x20x32x256.size a := by
  show i ∈ ((View.whole main_v8).slice (win0_2.rect t)).set ↔ _
  rw [View.set_slice_whole, Rect.mem_set_unit]
  exact Iff.rfl

/-- The output blocks cover the array: index (b, k, h, w) lies in the block of the point with block indices (b, 0, h / 32, 0). -/
theorem cover (i : S2x20x128x256.Idx) :
    ∃ t : Fin cfg0.N, (cfg0.win 2).flush t = true ∧ i ∈ ((cfg0.win 2).blk t).view.set := by
  have hi0 : (i 0).val < 2 := (i 0).isLt
  have hi1 : (i 1).val < 20 := (i 1).isLt
  have hi2 : (i 2).val < 128 := (i 2).isLt
  have hi3 : (i 3).val < 256 := (i 3).isLt
  obtain ⟨t, ht⟩ := idx_onto ⟨(i 0).val, hi0⟩ ⟨(i 2).val / 32, by omega⟩
  have q0 : win0_2.index t (0 : Fin 4) = (i 0).val := congrFun ht 0
  have q1 : win0_2.index t (1 : Fin 4) = 0 := congrFun ht 1
  have q2 : win0_2.index t (2 : Fin 4) = (i 2).val / 32 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 20 ≤ (i 1).val ∧ (i 1).val < win0_2.index t (1 : Fin 4) * 20 + 20; omega
  | ⟨2, _⟩ => show win0_2.index t (2 : Fin 4) * 32 ≤ (i 2).val ∧ (i 2).val < win0_2.index t (2 : Fin 4) * 32 + 32; omega
  | ⟨3, _⟩ => show win0_2.index t (3 : Fin 4) * 256 ≤ (i 3).val ∧ (i 3).val < win0_2.index t (3 : Fin 4) * 256 + 256; omega

/-- THE OUTPUT ARRAY after the region: the distance array of the features and the prototype array as the region finds them. -/
theorem final (c : Dev nD) :
    (dats m 0 c).arrAt 2 cfg0.N = distArr (V m c main_arg0) (V m c main_v7) :=
  (dats m 0 c).arrAt_eq_of_cover 2 _ (fun t _ => flushed_eq m c t) cover

end Cert.KernelIdeal.Blocks

end
-- ==== Proof.HostSide.lean ====
/-
  The kernel program's host operations, before and after its region, as formulas.

  Before the region the program brings the prototypes to unit length: it squares the prototype array, sums each row,
  takes the root, clamps it below by a small positive constant and divides.  These are, one for one, the operations by
  which the reference normalises the same argument, so the array the prototype window is staged from is the
  reference's normalised prototypes (`proto_entry`).

  After the region the program takes the absolute value |s| of the scale, negates the region's result D, broadcasts
  |s| from its one entry to the result's shape, multiplies, and divides by the word of one: at every index i the
  result is (-(D i) * |s|) / one (`tail_logits`).  The region's result is read as the third window's array after
  the last grid point; the scale is no window's array and no earlier operation writes it, so it is the launched
  argument.  A broadcast of a shape whose axes all have extent one reads that shape's single entry at every index
  (`bcast_scale_apply`, `bcast_scalar_apply`).
-/
import proofs.«156926_j40578851012977_1_alg».proof.Proof.Gen.KernelIdeal.Frame
import proofs.«156926_j40578851012977_1_alg».proof.Proof.Gen.ReferenceIdeal.Read
import proofs.«156926_j40578851012977_1_alg».proof.Proof.Spec
import Idealize.ShloMosaic.Lib.StableHlo.Run
import Idealize.ShloMosaic.Lib.Pipeline.Value
import Idealize.ShloMosaic.Lib.Pipeline.FrameSuffix
import Idealize.ShloMosaic.Lib.ValueIdx
import Idealize.ShloMosaic.PureOps.Ideal.Laws

noncomputable section

open scoped BigOperators

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (c : Dev nD)

/-- The prototype window's array, as the region finds it, is the reference's normalised prototypes of the same
    argument: both are the same chain of square, row sum, root, clamp and divide. -/
theorem proto_entry :
    (Gen.V m c main_v7 : S20x128.Idx → EReal)
      = Cert.ReferenceIdeal.Read.val_main_v16 (F := Ideal) (m ((c : Thread nD τ).loc main_arg1)) := by
  show StableHlo.after hostOps0 (fun b => m (c, b)) (Proc.devRef .tc main_v7) = _
  after_results
  rfl

/-- The scale, broadcast from [1] through [1,1,1,1] to the result's shape, reads the scale's one entry everywhere. -/
theorem bcast_scale_apply (h1 : S1.BroadcastsInDim S1x1x1x1 (![3] : Fin 1 → Fin S1x1x1x1.rank))
    (h2 : S1x1x1x1.BroadcastsInDim S2x20x128x256 (![0, 1, 2, 3] : Fin 4 → Fin S2x20x128x256.rank))
    (y : S1.Idx → EReal) (i : S2x20x128x256.Idx) :
    broadcastInDim S2x20x128x256 ![0, 1, 2, 3] h2 (broadcastInDim S1x1x1x1 ![3] h1 y) i = y (ix1 0) := by
  have e2 := broadcastInDim_apply (![0, 1, 2, 3] : Fin 4 → Fin S2x20x128x256.rank) h2 (broadcastInDim S1x1x1x1 ![3] h1 y) i
    (ix4 (0 : Fin 1) (0 : Fin 1) (0 : Fin 1) (0 : Fin 1)) (fun a => match a with
      | ⟨0, _⟩ => by show 0 = if (1 : Nat) = 1 then 0 else (i 0).val; rw [if_pos rfl]
      | ⟨1, _⟩ => by show 0 = if (1 : Nat) = 1 then 0 else (i 1).val; rw [if_pos rfl]
      | ⟨2, _⟩ => by show 0 = if (1 : Nat) = 1 then 0 else (i 2).val; rw [if_pos rfl]
      | ⟨3, _⟩ => by show 0 = if (1 : Nat) = 1 then 0 else (i 3).val; rw [if_pos rfl])
  have e1 := broadcastInDim_apply (![3] : Fin 1 → Fin S1x1x1x1.rank) h1 y
    (ix4 (0 : Fin 1) (0 : Fin 1) (0 : Fin 1) (0 : Fin 1)) (ix1 (0 : Fin 1)) (fun a => match a with
      | ⟨0, _⟩ => by show 0 = if (1 : Nat) = 1 then 0 else _; rw [if_pos rfl])
  exact e2.trans e1

/-- A scalar broadcast to the result's shape reads the scalar everywhere. -/
theorem bcast_scalar_apply (h : S_.BroadcastsInDim S2x20x128x256 (![] : Fin 0 → Fin S2x20x128x256.rank))
    (y : S_.Idx → EReal) (i : S2x20x128x256.Idx) :
    broadcastInDim S2x20x128x256 ![] h y i = y ix0 :=
  broadcastInDim_apply _ h y i ix0 (fun a => a.elim0)

/-- What the operations after the region leave in the result buffer, from the region's result `D`: the negated
    `D` times the absolute value of the scale, over one. -/
theorem tail_logits (D : Cert.ProtoDist.OutIdx → EReal) (hD : (Gen.dats m 0 c).arrAt 2 cfg0.N = D) :
    Pipeline.afterTail₀ cfgs (Gen.dats m) 0 (Gen.V0 m) [hostOps1] c main_v15
      = fun i => Ideal.div (-(D i) * FloatOps.hostAbsf (F := Ideal) (φ := .f32)
          (m ((c : Thread nD τ).loc main_arg2) (ValueIdx.ix1 0))) Cert.ProtoDist.one := by
  unfold Pipeline.afterTail₀
  show StableHlo.after hostOps1 _ (Proc.devRef .tc main_v15) = _
  after_results
  have e8 : Pipeline.withArrays (cfgs 0).spec c (V0 m c) (fun w => (dats m 0 c).arrAt w (cfgs 0).N)
      (Proc.devRef .tc main_v8) = D :=
    (Pipeline.withArrays_arr spec0 launch0.win.arr_inj c _ _ 2).trans hD
  have e2 : Pipeline.withArrays (cfgs 0).spec c (V0 m c) (fun w => (dats m 0 c).arrAt w (cfgs 0).N)
      (Proc.devRef .tc main_arg2) = m ((c : Thread nD τ).loc main_arg2) :=
    (Pipeline.withArrays_of_ne _ c (V0 m c) _ main_arg2
      (by exact (by decide : ∀ w, Pipeline.arrRef spec0 w ≠ main_arg2))).trans (V_main_arg2 m c)
  rw [e8, e2]
  funext i
  show FloatOps.hostDivf (FloatOps.mulf (FloatOps.hostNegf (D i)) (broadcastInDim S2x20x128x256 ![0, 1, 2, 3] _
      (broadcastInDim S1x1x1x1 ![3] _ (Host.absf (m ((c : Thread nD τ).loc main_arg2)))) i))
    (broadcastInDim S2x20x128x256 ![] _ (constant (F := Ideal) S_ .f32 0x3F800000#32) i) = _
  rw [bcast_scale_apply, bcast_scalar_apply]
  rfl

end Cert.KernelIdeal.HostSide

end
-- ==== Proof.Result.lean ====
/-
  The kernel program's run, with its result stated by the specification.

  Every weakly fair execution terminates without a fault.  The result buffer is written by the operations after the
  region, which turn the region's output array D into (-(D i) * |s|) / one at every index i; the region's output array is the
  distance array of the features and of the prototype array the region was entered with; the features reach the region
  as launched, and the prototype array is the launched prototypes brought to unit length — the reference's own
  normalisation of the same argument.  So the result is the specification's `logits` of the launched arguments.  The three
  argument arrays end as launched: the features are a staged input, the other two are written by no operation.
-/
import proofs.«156926_j40578851012977_1_alg».proof.Proof.Blocks
import proofs.«156926_j40578851012977_1_alg».proof.Proof.HostSide

noncomputable section

namespace Cert.KernelIdeal.Result

open Idealize.ShloMosaic Idealize.ShloMosaic.TcCoe Idealize.ShloMosaic.ValueIdx Idealize.SL.Sem
open Cert.KernelIdeal Cert.KernelIdeal.Gen Cert.ProtoDist

variable (m : (ℓ : Loc nD τ sig) → Buf (Elt Ideal) ℓ) (ρ : Dev nD → PrngReg)

/-- The result the kernel program ends with on core `c`, as a function of the launched arguments. -/
def value (c : Dev nD) : OutIdx → EReal :=
  logits (m ((c : Thread nD τ).loc main_arg0))
    (Cert.ReferenceIdeal.Read.val_main_v16 (F := Ideal) (m ((c : Thread nD τ).loc main_arg1)))
    (FloatOps.hostAbsf (F := Ideal) (φ := .f32) (m ((c : Thread nD τ).loc main_arg2) (ix1 0)))

/-- The tail's formula over the region's output array is the specification's `logits` of the launched arguments. -/
theorem tail_value (c : Dev nD) :
    (fun i => Ideal.div (-(distArr (V m c main_arg0) (V m c main_v7) i)
        * FloatOps.hostAbsf (F := Ideal) (φ := .f32) (m ((c : Thread nD τ).loc main_arg2) (ix1 0))) one)
      = value m c := by
  rw [V_main_arg0, HostSide.proto_entry]
  rfl

/-- The kernel program runs, ends with the specification's result, and leaves its arguments as launched. -/
theorem run : θ_run defs (onTc (τ := τ) (main (F := Ideal))) ⟨m, fun _ => 0, ρ⟩ (fun r => ∀ c : Dev nD,
      r.2.mem ((c.tc : Thread nD τ).loc main_v15) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v15 (Pipeline.mem_restRefs_of main_v15 (by decide) (by decide))).trans
        ((HostSide.tail_logits m c _ (Blocks.final m c)).trans (tail_value m c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.lean ====
/- The proof of `Cert.Claim`: a kernel that measures, for every position (b, h, w) of a feature array f(b, c, h, w), the Euclidean
   distance along c from the unit-length feature vector to each of twenty unit-length prototypes, against a reference that
   does the same through two transpositions.

   Both programs bring each feature row along w to (clamped) unit length, bring each prototype to unit length by the same
   chain of host operations, take for each prototype k the square root of the sum over c of squared differences, and end with
   a scale by |s|, a negation and a division by the word of one.  At the extended reals every operation is the exact one, a
   lane sum and a host sum are the same finite sum, and the layout operations only move entries; the two results differ
   only in the tail, (-d) * |s| against -(|s| * d), which are equal on all extended reals (no finiteness is used).

   Spec.lean states the result as one function of the argument arrays; RefValue.lean shows the reference's run ends at it;
   Body.lean, Block.lean, Blocks.lean, HostSide.lean and Result.lean show the kernel program's run ends at it (one block's
   arithmetic at an index; the twenty stored pieces as one block; the eight blocks as the array; the host operations
   around the region; the run).  The three frames are the generated ones (the reference's is its generated run with the
   result dropped); the idealized kernel is the kernel's own text read at the extended reals, so `preserves` has nothing to state. -/
import proofs.«156926_j40578851012977_1_alg».proof.Defs
import proofs.«156926_j40578851012977_1_alg».proof.Proof.Gen.Kernel
import proofs.«156926_j40578851012977_1_alg».proof.Proof.Gen.Kernel.Skeleton
import proofs.«156926_j40578851012977_1_alg».proof.Proof.Gen.Kernel.Launch
import proofs.«156926_j40578851012977_1_alg».proof.Proof.Gen.Kernel.Points
import proofs.«156926_j40578851012977_1_alg».proof.Proof.Gen.Kernel.Frame
import proofs.«156926_j40578851012977_1_alg».proof.Proof.Gen.KernelIdeal
import proofs.«156926_j40578851012977_1_alg».proof.Proof.Gen.KernelIdeal.Skeleton
import proofs.«156926_j40578851012977_1_alg».proof.Proof.Gen.KernelIdeal.Launch
import proofs.«156926_j40578851012977_1_alg».proof.Proof.Gen.KernelIdeal.Points
import proofs.«156926_j40578851012977_1_alg».proof.Proof.Gen.KernelIdeal.Frame
import proofs.«156926_j40578851012977_1_alg».proof.Proof.Gen.ReferenceIdeal
import proofs.«156926_j40578851012977_1_alg».proof.Proof.Gen.ReferenceIdeal.Run
import proofs.«156926_j40578851012977_1_alg».proof.Proof.Gen.ReferenceIdeal.Read
import proofs.«156926_j40578851012977_1_alg».proof.Proof.Gen.Pre_finite_inputs
import proofs.«156926_j40578851012977_1_alg».proof.Proof.RefValue
import proofs.«156926_j40578851012977_1_alg».proof.Proof.Result
import Idealize.ShloMosaic.Adequacy
import Idealize.ShloMosaic.Init

noncomputable section

namespace Cert.Proof

open Idealize.ShloMosaic Idealize.SL.Sem

/-- The kernel program as printed runs and leaves its arguments as launched. -/
theorem frame_kernel : Cert.frame_Kernel := fun m ρ _ => Cert.Kernel.Gen.frame m ρ

/-- So does the kernel program read at the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the three arguments, both programs end with the specification's result of those
    arguments: the kernel program by its run, the reference by its run read stage by stage. -/
theorem algebraic : Cert.algebraic_KernelIdeal_ReferenceIdeal := by
  intro m ρ m' ρ' _ hagree
  refine ⟨fun c => Cert.KernelIdeal.Result.value m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.ReferenceIdeal.RefValue.ref_logits,
    (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
